-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 74
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S_, .f32⟩
  | .hbm, ⟨30, _⟩ => ⟨S100000x128, .f32⟩
  | .hbm, ⟨31, _⟩ => ⟨S625000x1, .i32⟩
  | .hbm, ⟨32, _⟩ => ⟨S100000x128, .f32⟩
  | .hbm, ⟨33, _⟩ => ⟨S_, .f32⟩
  | .hbm, ⟨34, _⟩ => ⟨S625000, .f32⟩
  | .hbm, ⟨35, _⟩ => ⟨S_, .f32⟩
  | .hbm, ⟨36, _⟩ => ⟨S100000, .f32⟩
  | .hbm, ⟨37, _⟩ => ⟨S625000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S625000, .i32⟩
  | .hbm, ⟨49, _⟩ => ⟨S625000, .i1⟩
  | .hbm, ⟨50, _⟩ => ⟨S_, .i32⟩
  | .hbm, ⟨51, _⟩ => ⟨S625000, .i32⟩
  | .hbm, ⟨52, _⟩ => ⟨S625000, .i32⟩
  | .hbm, ⟨53, _⟩ => ⟨S625000, .i32⟩
  | .hbm, ⟨54, _⟩ => ⟨S625000x1, .i32⟩
  | .hbm, ⟨55, _⟩ => ⟨S625000x128, .f32⟩
  | .hbm, ⟨56, _⟩ => ⟨S_, .f32⟩
  | .hbm, ⟨57, _⟩ => ⟨S100000x128, .f32⟩
  | .hbm, ⟨58, _⟩ => ⟨S625000x1, .i32⟩
  | .hbm, ⟨59, _⟩ => ⟨S100000x128, .f32⟩
  | .hbm, ⟨60, _⟩ => ⟨S_, .f32⟩
  | .hbm, ⟨61, _⟩ => ⟨S625000, .f32⟩
  | .hbm, ⟨62, _⟩ => ⟨S_, .f32⟩
  | .hbm, ⟨63, _⟩ => ⟨S100000, .f32⟩
  | .hbm, ⟨64, _⟩ => ⟨S625000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  bitsLt_bf16_f32 : FTy.bits .bf16 < FTy.bits .f32
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S100000x128, .f32⟩
  | .hbm, ⟨23, _⟩ => ⟨S625000x1, .i32⟩
  | .hbm, ⟨24, _⟩ => ⟨S100000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S100000, .f32⟩
  | .hbm, ⟨29, _⟩ => ⟨S625000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S625000, .i32⟩
  | .hbm, ⟨55, _⟩ => ⟨S625000, .i1⟩
  | .hbm, ⟨56, _⟩ => ⟨S_, .i32⟩
  | .hbm, ⟨57, _⟩ => ⟨S625000, .i32⟩
  | .hbm, ⟨58, _⟩ => ⟨S625000, .i32⟩
  | .hbm, ⟨59, _⟩ => ⟨S625000, .i32⟩
  | .hbm, ⟨60, _⟩ => ⟨S625000x1, .i32⟩
  | .hbm, ⟨61, _⟩ => ⟨S625000x128, .f32⟩
  | .hbm, ⟨62, _⟩ => ⟨S_, .f32⟩
  | .hbm, ⟨63, _⟩ => ⟨S100000x128, .f32⟩
  | .hbm, ⟨64, _⟩ => ⟨S625000x1, .i32⟩
  | .hbm, ⟨65, _⟩ => ⟨S100000x128, .f32⟩
  | .hbm, ⟨66, _⟩ => ⟨S_, .f32⟩
  | .hbm, ⟨67, _⟩ => ⟨S625000, .f32⟩
  | .hbm, ⟨68, _⟩ => ⟨S_, .f32⟩
  | .hbm, ⟨69, _⟩ => ⟨S100000, .f32⟩
  | .hbm, ⟨70, _⟩ => ⟨S625000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's whole run, with the result buffer named.

  The program is four stretches in order: host operations, the first pallas region, host operations, the second
  pallas region.  The contents of the device's buffers at each boundary are a fold from the launch memory: `W1` after
  the first host stretch, `W2` after the first region (its output array at what its twenty write-backs leave, every
  other buffer untouched), `W3` after the second host stretch, `W4` after the second region.  Every weakly fair
  execution terminates without a fault in a state whose buffers hold `W4`; in particular the result buffer holds
  `W4` at the result's reference, and the arguments hold what they held at launch.
-/
import proofs.«139245_j13984413516530_1_alg».proof.Proof.Patched.KernelIdealFrame

set_option maxRecDepth 16384

noncomputable section

namespace Cert.Sage.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result buffer at the
    last boundary's contents `W4` and the arguments as launched. -/
theorem run : θ_run defs (onTc (τ := τ) (main (F := F))) ⟨m, fun _ => 0, ρ⟩ (fun r => ∀ c : Dev nD,
      r.2.mem ((c.tc : Thread nD τ).loc main_v53) = W4 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v53 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KRun

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.Layer.lean ====
/-
  One GraphSAGE linear layer, as a function of whole arrays on the extended reals, entry by entry.

  For node p and output feature q,
      lin(p, q) = Σ_k a[p,k]·wl[k,q]  +  Σ_k r[p,k]·wr[k,q]  +  b[0,q],
  where a is the mean of the neighbours' features, r the node's own features, wl and wr the two weight matrices
  already transposed to [in, out], and b the bias kept as one row.  The hidden layer is the logistic function of it.
  The sum of three terms is written here in the order (left product + right product) + bias; the extended reals
  are a commutative monoid under +, so the order (left product + bias) + right product is the same number
  (`three_add`), with no finiteness needed.
-/
import Idealize.ShloMosaic.PureOps.Ideal.Laws
import Idealize.ShloMosaic.Lib.ValueIdx

noncomputable section

open scoped BigOperators

namespace Cert.Sage

open Idealize.ShloMosaic Idealize.ShloMosaic.ValueIdx

/-- node features: 100000 nodes, 128 features each. -/
abbrev Nodes : Shape := ⟨2, ![100000, 128]⟩
/-- a weight matrix, stored [in, out]. -/
abbrev Weights : Shape := ⟨2, ![128, 128]⟩
/-- the bias as one row. -/
abbrev BiasRow : Shape := ⟨2, ![1, 128]⟩

/-- The layer before its activation, at node `p` and output feature `q`. -/
def linAt (a r : Nodes.Idx → EReal) (wl wr : Weights.Idx → EReal) (b : BiasRow.Idx → EReal) (p : Fin 100000) (q : Fin 128) : EReal :=
  ((∑ k : Fin 128, a (ix2 p k) * wl (ix2 k q)) + ∑ k : Fin 128, r (ix2 p k) * wr (ix2 k q)) + b (ix2 (0 : Fin 1) q)

/-- The layer before its activation, as an array. -/
def lin (a r : Nodes.Idx → EReal) (wl wr : Weights.Idx → EReal) (b : BiasRow.Idx → EReal) : Nodes.Idx → EReal :=
  fun i => linAt a r wl wr b (i 0) (i 1)

/-- The hidden layer: the logistic function of `lin`, entry by entry. -/
def hid (a r : Nodes.Idx → EReal) (wl wr : Weights.Idx → EReal) (b : BiasRow.Idx → EReal) : Nodes.Idx → EReal :=
  fun i => Ideal.logistic (linAt a r wl wr b (i 0) (i 1))

theorem lin_ix2 (a r : Nodes.Idx → EReal) (wl wr : Weights.Idx → EReal) (b : BiasRow.Idx → EReal) (p : Fin 100000) (q : Fin 128) :
    lin a r wl wr b (ix2 p q) = linAt a r wl wr b p q := rfl

theorem hid_ix2 (a r : Nodes.Idx → EReal) (wl wr : Weights.Idx → EReal) (b : BiasRow.Idx → EReal) (p : Fin 100000) (q : Fin 128) :
    hid a r wl wr b (ix2 p q) = Ideal.logistic (linAt a r wl wr b p q) := rfl

/-- Adding the bias before or after the second product is the same sum. -/
theorem three_add (s₁ s₂ c : EReal) : (s₁ + c) + s₂ = (s₁ + s₂) + c := add_right_comm s₁ c s₂

end Cert.Sage

end
-- ==== Proof.Body.lean ====
/-
  The kernel body's arithmetic at one entry of its output block, on the extended reals.

  The body loads a block of 5000 rows of the aggregated features (x0) and of the nodes' own features (x1), the two
  weight matrices (x2, x3, stored [in, out]) and the bias row (x4).  Changing the float format is the identity on the
  extended reals, and a matrix product into a zero accumulator is the plain sum of products, so entry (p, q) of what
  the body stores is

      Σ_k x0[p,k]·x2[k,q] + Σ_k x1[p,k]·x3[k,q] + x4[0,q]

  — passed through the logistic function in the first layer, stored as it is in the second.
-/
import proofs.«139245_j13984413516530_1_alg».proof.Proof.Gen.KernelIdeal.Skeleton
import proofs.«139245_j13984413516530_1_alg».proof.Proof.LibRowOps
import proofs.«139245_j13984413516530_1_alg».proof.Proof.Layer
import Idealize.ShloMosaic.Lib.Pipeline.Value
import Idealize.ShloMosaic.Lib.ValueIdx
import Idealize.ShloMosaic.PureOps.Ideal.Laws

noncomputable section

open scoped BigOperators

namespace Cert.Sage.Body

open Cert.KernelIdeal Cert.KernelIdeal.Gen Idealize.ShloMosaic Idealize.ShloMosaic.ValueIdx Cert.Sage

/-- The body's contraction is the plain [5000,128] × [128,128] product. -/
theorem dims_plain : dot_S5000x128_S128x128_S5000x128_1_0_0_1_n_n = DotDims.plain 5000 128 128 :=
  Cert.RowLib.dotDims_eq_plain _ rfl rfl rfl rfl rfl rfl

/-- A block of rows (in either float format) times a weight matrix, into zero, at entry (p, q). -/
theorem prod_at (x : FVec Ideal S5000x128 .f32) (w : FVec Ideal S128x128 .bf16) (p : Fin 5000) (q : Fin 128) :
    matmul dot_S5000x128_S128x128_S5000x128_1_0_0_1_n_n none (truncf .bf16 x bitsLt_bf16_f32 : FVec Ideal S5000x128 .bf16) w
        (constant (F := Ideal) S5000x128 .f32 0x00000000#32) (ix2 p q)
      = ∑ k : Fin 128, x (ix2 p k) * w (ix2 k q) := by
  rw [dims_plain]
  exact Cert.RowLib.matmul_plain_zero_ix2 none (truncf .bf16 x bitsLt_bf16_f32 : FVec Ideal S5000x128 .bf16) w p q

/-- The bias row repeated down the block's rows, at entry (p, q). -/
theorem bias_at (b : Vec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) fun ax => ?_
  match ax with
  | ⟨0, _⟩ => show (0 : Nat) = if (1 : Nat) = 1 then 0 else p.val; rw [if_pos rfl]
  | ⟨1, _⟩ => show q.val = if (128 : Nat) = 1 then 0 else q.val; rw [if_neg (by decide)]

/-- What the first layer's body stores, at entry (p, q) of its block. -/
theorem pay0_at (x0 x1 : Vec Ideal S5000x128 .f32) (x2 x3 : Vec Ideal S128x128 .bf16) (x4 : Vec Ideal S1x128 .f32)
    (p : Fin 5000) (q : Fin 128) :
    k0_pay1 x0 x1 x2 x3 x4 (ix2 p q)
      = Ideal.logistic (((∑ k : Fin 128, x0 (ix2 p k) * x2 (ix2 k q)) + ∑ k : Fin 128, x1 (ix2 p k) * x3 (ix2 k q))
          + x4 (ix2 (0 : Fin 1) q)) := by
  unfold k0_pay1
  simp only [shapeCast_self]
  show Ideal.logistic ((matmul dot_S5000x128_S128x128_S5000x128_1_0_0_1_n_n none (truncf .bf16 x0 bitsLt_bf16_f32 : FVec Ideal S5000x128 .bf16) x2
        (constant (F := Ideal) S5000x128 .f32 0x00000000#32) (ix2 p q)
      + matmul dot_S5000x128_S128x128_S5000x128_1_0_0_1_n_n none (truncf .bf16 x1 bitsLt_bf16_f32 : FVec Ideal S5000x128 .bf16) x3
        (constant (F := Ideal) S5000x128 .f32 0x00000000#32) (ix2 p q))
      + broadcastTo S5000x128 x4 broadcasts_S1x128_S5000x128 (ix2 p q)) = _
  rw [prod_at, prod_at, bias_at]

/-- What the second layer's body stores, at entry (p, q) of its block. -/
theorem pay1_at (x0 x1 : Vec Ideal S5000x128 .f32) (x2 x3 : Vec Ideal S128x128 .bf16) (x4 : Vec Ideal S1x128 .f32)
    (p : Fin 5000) (q : Fin 128) :
    k1_pay1 x0 x1 x2 x3 x4 (ix2 p q)
      = ((∑ k : Fin 128, x0 (ix2 p k) * x2 (ix2 k q)) + ∑ k : Fin 128, x1 (ix2 p k) * x3 (ix2 k q))
          + x4 (ix2 (0 : Fin 1) q) := by
  unfold k1_pay1
  simp only [shapeCast_self]
  show (matmul dot_S5000x128_S128x128_S5000x128_1_0_0_1_n_n none (truncf .bf16 x0 bitsLt_bf16_f32 : FVec Ideal S5000x128 .bf16) x2
        (constant (F := Ideal) S5000x128 .f32 0x00000000#32) (ix2 p q)
      + matmul dot_S5000x128_S128x128_S5000x128_1_0_0_1_n_n none (truncf .bf16 x1 bitsLt_bf16_f32 : FVec Ideal S5000x128 .bf16) x3
        (constant (F := Ideal) S5000x128 .f32 0x00000000#32) (ix2 p q))
      + broadcastTo S5000x128 x4 broadcasts_S1x128_S5000x128 (ix2 p q) = _
  rw [prod_at, prod_at, bias_at]

/-- If row p of the two loaded row blocks is row P of the whole feature arrays, and the loaded weights and bias are the
    whole ones, the first layer's body stores at (p, q) the hidden layer's entry (P, q). -/
theorem point0 (A R : Nodes.Idx → EReal) (Wl Wr : Weights.Idx → EReal) (B : BiasRow.Idx → EReal)
    (x0 x1 : Vec Ideal S5000x128 .f32) (x2 x3 : Vec Ideal S128x128 .bf16) (x4 : Vec Ideal S1x128 .f32)
    (p : Fin 5000) (q : Fin 128) (P : Fin 100000)
    (h0 : ∀ k : Fin 128, x0 (ix2 p k) = A (ix2 P k)) (h1 : ∀ k : Fin 128, x1 (ix2 p k) = R (ix2 P k))
    (h2 : ∀ k : Fin 128, x2 (ix2 k q) = Wl (ix2 k q)) (h3 : ∀ k : Fin 128, x3 (ix2 k q) = Wr (ix2 k q))
    (h4 : x4 (ix2 (0 : Fin 1) q) = B (ix2 (0 : Fin 1) q)) :
    k0_pay1 x0 x1 x2 x3 x4 (ix2 p q) = hid A R Wl Wr B (ix2 P q) := by
  rw [pay0_at, hid_ix2]
  unfold linAt
  simp only [h0, h1, h2, h3, h4]

/-- The same for the second layer's body, which stores the layer's value as it is. -/
theorem point1 (A R : Nodes.Idx → EReal) (Wl Wr : Weights.Idx → EReal) (B : BiasRow.Idx → EReal)
    (x0 x1 : Vec Ideal S5000x128 .f32) (x2 x3 : Vec Ideal S128x128 .bf16) (x4 : Vec Ideal S1x128 .f32)
    (p : Fin 5000) (q : Fin 128) (P : Fin 100000)
    (h0 : ∀ k : Fin 128, x0 (ix2 p k) = A (ix2 P k)) (h1 : ∀ k : Fin 128, x1 (ix2 p k) = R (ix2 P k))
    (h2 : ∀ k : Fin 128, x2 (ix2 k q) = Wl (ix2 k q)) (h3 : ∀ k : Fin 128, x3 (ix2 k q) = Wr (ix2 k q))
    (h4 : x4 (ix2 (0 : Fin 1) q) = B (ix2 (0 : Fin 1) q)) :
    k1_pay1 x0 x1 x2 x3 x4 (ix2 p q) = lin A R Wl Wr B (ix2 P q) := by
  rw [pay1_at, lin_ix2]
  unfold linAt
  simp only [h0, h1, h2, h3, h4]

end Cert.Sage.Body

end
-- ==== Proof.Region.lean ====
/-
  What each of the two pallas regions leaves in its output array, as one function of the arrays it finds.

  Both regions run the same body over 20 grid points; point t stages rows 5000·t … 5000·t+4999 of the aggregated
  features and of the nodes' own features, the two whole weight matrices and the whole bias row, and writes rows
  5000·t … 5000·t+4999 of the output.  An entry of the layer depends on one row of each feature array, so the block a
  point writes back is that block of rows of the whole layer (`flushed0_eq`, `flushed1_eq`); the 20 blocks tile the
  array (`cover0`, `cover1`); hence after the region the output array is the layer of the arrays the region found
  (`final0`: the hidden layer, with the logistic function; `final1`: the output layer).
-/
import proofs.«139245_j13984413516530_1_alg».proof.Proof.Patched.KernelIdealFrame
import proofs.«139245_j13984413516530_1_alg».proof.Proof.Body
import proofs.«139245_j13984413516530_1_alg».proof.Proof.Layer
import Idealize.ShloMosaic.Lib.Pipeline.Value

noncomputable section

open scoped BigOperators

namespace Cert.Sage.Region

open Cert.KernelIdeal Cert.KernelIdeal.Gen Cert.KernelIdeal.GenP Idealize.ShloMosaic Idealize.ShloMosaic.TcCoe Idealize.SL.Sem
open Idealize.ShloMosaic.ValueIdx Cert.Sage Cert.Sage.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first region -/

/-- The printed index maps over the grid: the row windows are at block t, the weights and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point t writes back rows 5000·t … of the hidden layer of the arrays the region found. -/
theorem flushed0_eq (c : Dev nD) (t : Fin cfg0.N) :
    (dat0 V c).flushed 5 t = ((cfg0.win 5).blk t).view.read (Elt Ideal)
      (hid (V c main_v30) (V c main_arg0) (V c main_v5) (V c main_v7) (V c main_v31)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx0 t
  have ht : t.val < 20 := lt_of_lt_of_eq t.isLt N_0
  funext j
  have hj0 : (j 0).val < 5000 := (j 0).isLt
  have hj1 : (j 1).val < 128 := (j 1).isLt
  have eL : (win0 5).xinj (grid0.coords t) j = ix2 (⟨(j 0).val, hj0⟩ : Fin 5000) (⟨(j 1).val, hj1⟩ : Fin 128) :=
    funext fun a => by match a with | ⟨0, _⟩ => rfl | ⟨1, _⟩ => rfl
  have eR : ((View.whole main_v32).slice ((win0 5).rect t)).emb j
      = ix2 (⟨t.val * 5000 + (j 0).val, by omega⟩ : Fin 100000) (⟨(j 1).val, hj1⟩ : Fin 128) :=
    funext fun a => Fin.ext (by
      match a with
      | ⟨0, _⟩ => show win0_5.index t (0 : Fin 2) * 5000 + 1 * (j 0).val = t.val * 5000 + (j 0).val; rw [e50]; omega
      | ⟨1, _⟩ => show win0_5.index t (1 : Fin 2) * 128 + 1 * (j 1).val = (j 1).val; rw [e51]; omega)
  rw [View.read_apply]
  show k0_pay1 (iblk0 V c 0 t) (iblk0 V c 1 t) (iblk0 V c 2 t) (iblk0 V c 3 t) (iblk0 V c 4 t) ((win0 5).xinj (grid0.coords t) j) = _
  rw [eL, eR]
  refine point0 (V c main_v30) (V c main_arg0) (V c main_v5) (V c main_v7) (V c main_v31)
    (iblk0 V c 0 t) (iblk0 V c 1 t) (iblk0 V c 2 t) (iblk0 V c 3 t) (iblk0 V c 4 t)
    (⟨(j 0).val, hj0⟩ : Fin 5000) (⟨(j 1).val, hj1⟩ : Fin 128) (⟨t.val * 5000 + (j 0).val, by omega⟩ : Fin 100000) ?_ ?_ ?_ ?_ ?_
  · intro k
    show V c main_v30 (((cfg0.win 0).blk t).view.emb (ix2 (⟨(j 0).val, hj0⟩ : Fin 5000) k)) = _
    refine congrArg (V c main_v30) (funext fun a => Fin.ext ?_)
    match a with
    | ⟨0, _⟩ => show win0_0.index t (0 : Fin 2) * 5000 + 1 * (j 0).val = t.val * 5000 + (j 0).val; rw [e00]; omega
    | ⟨1, _⟩ => show win0_0.index t (1 : Fin 2) * 128 + 1 * k.val = k.val; rw [e01]; omega
  · intro k
    show V c main_arg0 (((cfg0.win 1).blk t).view.emb (ix2 (⟨(j 0).val, hj0⟩ : Fin 5000) k)) = _
    refine congrArg (V c main_arg0) (funext fun a => Fin.ext ?_)
    match a with
    | ⟨0, _⟩ => show win0_1.index t (0 : Fin 2) * 5000 + 1 * (j 0).val = t.val * 5000 + (j 0).val; rw [e10]; omega
    | ⟨1, _⟩ => show win0_1.index t (1 : Fin 2) * 128 + 1 * k.val = k.val; rw [e11]; omega
  · intro k
    show V c main_v5 (((cfg0.win 2).blk t).view.emb (ix2 k (⟨(j 1).val, hj1⟩ : Fin 128))) = _
    refine congrArg (V c main_v5) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = (j 1).val; rw [e21]; omega
  · intro k
    show V c main_v7 (((cfg0.win 3).blk t).view.emb (ix2 k (⟨(j 1).val, hj1⟩ : Fin 128))) = _
    refine congrArg (V c main_v7) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = (j 1).val; rw [e31]; omega
  · show V c main_v31 (((cfg0.win 4).blk t).view.emb (ix2 (0 : Fin 1) (⟨(j 1).val, hj1⟩ : Fin 128))) = _
    refine congrArg (V c main_v31) (funext fun a => Fin.ext ?_)
    match a with
    | ⟨0, _⟩ => show win0_4.index t (0 : Fin 2) * 1 + 1 * 0 = 0; rw [e40]
    | ⟨1, _⟩ => show win0_4.index t (1 : Fin 2) * 128 + 1 * (j 1).val = (j 1).val; rw [e41]; omega

/-- An array index lies in point t's output block iff each coordinate lies in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- Row r of the output lies in the block of point r / 5000: the twenty blocks tile the array. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  obtain ⟨-, -, -, -, -, -, -, -, -, -, e50, e51⟩ := idx0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e51]
    omega

/-- After the first region its output array is the hidden layer of the arrays the region found. -/
theorem final0 (c : Dev nD) :
    (dat0 V c).arrAt 5 cfg0.N = hid (V c main_v30) (V c main_arg0) (V c main_v5) (V c main_v7) (V c main_v31) :=
  (dat0 V c).arrAt_eq_of_cover 5 _ (fun t _ => flushed0_eq V c t) cover0

/-! ## The second region -/

/-- The printed index maps over the grid: the row windows are at block t, the weights and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t writes back rows 5000·t … of the output layer of the arrays the region found. -/
theorem flushed1_eq (c : Dev nD) (t : Fin cfg1.N) :
    (dat1 V c).flushed 5 t = ((cfg1.win 5).blk t).view.read (Elt Ideal)
      (lin (V c main_v51) (V c main_v32) (V c main_v9) (V c main_v11) (V c main_v52)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx1 t
  have ht : t.val < 20 := lt_of_lt_of_eq t.isLt N_1
  funext j
  have hj0 : (j 0).val < 5000 := (j 0).isLt
  have hj1 : (j 1).val < 128 := (j 1).isLt
  have eL : (win1 5).xinj (grid1.coords t) j = ix2 (⟨(j 0).val, hj0⟩ : Fin 5000) (⟨(j 1).val, hj1⟩ : Fin 128) :=
    funext fun a => by match a with | ⟨0, _⟩ => rfl | ⟨1, _⟩ => rfl
  have eR : ((View.whole main_v53).slice ((win1 5).rect t)).emb j
      = ix2 (⟨t.val * 5000 + (j 0).val, by omega⟩ : Fin 100000) (⟨(j 1).val, hj1⟩ : Fin 128) :=
    funext fun a => Fin.ext (by
      match a with
      | ⟨0, _⟩ => show win1_5.index t (0 : Fin 2) * 5000 + 1 * (j 0).val = t.val * 5000 + (j 0).val; rw [e50]; omega
      | ⟨1, _⟩ => show win1_5.index t (1 : Fin 2) * 128 + 1 * (j 1).val = (j 1).val; rw [e51]; omega)
  rw [View.read_apply]
  show k1_pay1 (iblk1 V c 0 t) (iblk1 V c 1 t) (iblk1 V c 2 t) (iblk1 V c 3 t) (iblk1 V c 4 t) ((win1 5).xinj (grid1.coords t) j) = _
  rw [eL, eR]
  refine point1 (V c main_v51) (V c main_v32) (V c main_v9) (V c main_v11) (V c main_v52)
    (iblk1 V c 0 t) (iblk1 V c 1 t) (iblk1 V c 2 t) (iblk1 V c 3 t) (iblk1 V c 4 t)
    (⟨(j 0).val, hj0⟩ : Fin 5000) (⟨(j 1).val, hj1⟩ : Fin 128) (⟨t.val * 5000 + (j 0).val, by omega⟩ : Fin 100000) ?_ ?_ ?_ ?_ ?_
  · intro k
    show V c main_v51 (((cfg1.win 0).blk t).view.emb (ix2 (⟨(j 0).val, hj0⟩ : Fin 5000) k)) = _
    refine congrArg (V c main_v51) (funext fun a => Fin.ext ?_)
    match a with
    | ⟨0, _⟩ => show win1_0.index t (0 : Fin 2) * 5000 + 1 * (j 0).val = t.val * 5000 + (j 0).val; rw [e00]; omega
    | ⟨1, _⟩ => show win1_0.index t (1 : Fin 2) * 128 + 1 * k.val = k.val; rw [e01]; omega
  · intro k
    show V c main_v32 (((cfg1.win 1).blk t).view.emb (ix2 (⟨(j 0).val, hj0⟩ : Fin 5000) k)) = _
    refine congrArg (V c main_v32) (funext fun a => Fin.ext ?_)
    match a with
    | ⟨0, _⟩ => show win1_1.index t (0 : Fin 2) * 5000 + 1 * (j 0).val = t.val * 5000 + (j 0).val; rw [e10]; omega
    | ⟨1, _⟩ => show win1_1.index t (1 : Fin 2) * 128 + 1 * k.val = k.val; rw [e11]; omega
  · intro k
    show V c main_v9 (((cfg1.win 2).blk t).view.emb (ix2 k (⟨(j 1).val, hj1⟩ : Fin 128))) = _
    refine congrArg (V c main_v9) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = (j 1).val; rw [e21]; omega
  · intro k
    show V c main_v11 (((cfg1.win 3).blk t).view.emb (ix2 k (⟨(j 1).val, hj1⟩ : Fin 128))) = _
    refine congrArg (V c main_v11) (funext fun a => Fin.ext ?_)
    match a with
    | ⟨0, _⟩ => show win1_3.index t (0 : Fin 2) * 128 + 1 * k.val = k.val; rw [e30]; omega
    | ⟨1, _⟩ => show win1_3.index t (1 : Fin 2) * 128 + 1 * (j 1).val = (j 1).val; rw [e31]; omega
  · show V c main_v52 (((cfg1.win 4).blk t).view.emb (ix2 (0 : Fin 1) (⟨(j 1).val, hj1⟩ : Fin 128))) = _
    refine congrArg (V c main_v52) (funext fun a => Fin.ext ?_)
    match a with
    | ⟨0, _⟩ => show win1_4.index t (0 : Fin 2) * 1 + 1 * 0 = 0; rw [e40]
    | ⟨1, _⟩ => show win1_4.index t (1 : Fin 2) * 128 + 1 * (j 1).val = (j 1).val; rw [e41]; omega

/-- An array index lies in point t's output block iff each coordinate lies in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v53).slice (win1_5.rect t)).set ↔ _
  rw [View.set_slice_whole, Rect.mem_set_unit]
  exact Iff.rfl

/-- Row r of the output lies in the block of point r / 5000: the twenty blocks tile the array. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < cfg1.N := lt_of_lt_of_eq (by omega : (i 0).val / 5000 < 20) N_1.symm
  obtain ⟨-, -, -, -, -, -, -, -, -, -, e50, e51⟩ := idx1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e51]
    omega

/-- After the second region its output array is the output layer of the arrays the region found. -/
theorem final1 (c : Dev nD) :
    (dat1 V c).arrAt 5 cfg1.N = lin (V c main_v51) (V c main_v32) (V c main_v9) (V c main_v11) (V c main_v52) :=
  (dat1 V c).arrAt_eq_of_cover 5 _ (fun t _ => flushed1_eq V c t) cover1

end Cert.Sage.Region

end
-- ==== Proof.Host.lean ====
/-
  What the two pallas regions find in the buffers they stage, read back to the program's arguments.

  Before the first region the host has computed, from the arguments, the mean aggregation of the input features along
  the edges, the two transposed weight matrices (a change of float format is the identity on the extended reals) and
  the bias as one row; between the regions it computes the same aggregation of the first region's output, and the
  second layer's transposed weights and bias row.  Each is the corresponding stage of the reference program, the same
  operations in the same order; a bias reshaped to one row and a bias broadcast to one row are the same row.
-/
import proofs.«139245_j13984413516530_1_alg».proof.Proof.Patched.KernelIdealFrame
import proofs.«139245_j13984413516530_1_alg».proof.Proof.Gen.ReferenceIdeal.Read
import Idealize.ShloMosaic.Lib.StableHlo.Run
import Idealize.ShloMosaic.Lib.Pipeline.Value

set_option maxRecDepth 16384

noncomputable section

namespace Cert.Sage.Host

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx
open Cert.ReferenceIdeal.Read

/-- A length-128 vector reshaped to one row is the vector broadcast to one row. -/
theorem bias_row (x : (⟨1, ![128]⟩ : Shape).Idx → EReal) (h : (⟨1, ![128]⟩ : Shape).ShapeCasts ⟨2, ![1, 128]⟩) :
    shapeCast ⟨2, ![1, 128]⟩ x h = val_main_v25 (F := Ideal) x := by
  funext i
  rw [val_main_v25_apply]
  refine (shapeCast_addUnit_apply ![128] x h i).trans (congrArg x (funext fun a => ?_))
  match a with
  | ⟨0, _⟩ => rfl

variable (m : (ℓ : Loc nD τ sig) → Buf (Elt Ideal) ℓ) (ρ : Dev nD → PrngReg)

/-! ## At the first region's entry -/

set_option maxHeartbeats 4000000 in
theorem V1_v30 (c : Dev nD) :
    (V1 m ρ c main_v30 : S100000x128.Idx → EReal)
      = val_main_v22 (F := Ideal) (m ((c.tc : Thread nD τ).loc main_arg0)) (m ((c.tc : Thread nD τ).loc main_arg1)) := by
  show StableHlo.after hostOps0 (W0 m ρ c) (Proc.devRef .tc main_v30) = _
  after_results_simp
  rfl

theorem V1_arg0 (c : Dev nD) :
    (V1 m ρ c main_arg0 : S100000x128.Idx → EReal) = m ((c.tc : Thread nD τ).loc main_arg0) := by
  show StableHlo.after hostOps0 (W0 m ρ c) (Proc.devRef .tc main_arg0) = _
  after_results_simp

theorem V1_v5 (c : Dev nD) :
    (V1 m ρ c main_v5 : S128x128.Idx → EReal) = val_main_v23 (F := Ideal) (m ((c.tc : Thread nD τ).loc main_arg2)) := by
  show StableHlo.after hostOps0 (W0 m ρ c) (Proc.devRef .tc main_v5) = _
  after_results_simp
  rfl

theorem V1_v7 (c : Dev nD) :
    (V1 m ρ c main_v7 : S128x128.Idx → EReal) = val_main_v28 (F := Ideal) (m ((c.tc : Thread nD τ).loc main_arg4)) := by
  show StableHlo.after hostOps0 (W0 m ρ c) (Proc.devRef .tc main_v7) = _
  after_results_simp
  rfl

theorem V1_v31 (c : Dev nD) :
    (V1 m ρ c main_v31 : S1x128.Idx → EReal) = val_main_v25 (F := Ideal) (m ((c.tc : Thread nD τ).loc main_arg3)) := by
  show StableHlo.after hostOps0 (W0 m ρ c) (Proc.devRef .tc main_v31) = _
  after_results_simp
  exact bias_row _ _

/-! ## At the second region's entry -/

/-- The edge list's two rows, as the first host stretch leaves them, are untouched by the first region. -/
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)

theorem W1_v1 (c : Dev nD) :
    (W1 m ρ c (Proc.devRef .tc main_v1) : S625000.Idx → BitVec 32) = val_main_v1 (F := Ideal) (m ((c.tc : Thread nD τ).loc main_arg1)) := by
  show StableHlo.after hostOps0 (W0 m ρ c) (Proc.devRef .tc main_v1) = _
  after_results_simp
  rfl
theorem W1_v3 (c : Dev nD) :
    (W1 m ρ c (Proc.devRef .tc main_v3) : S625000.Idx → BitVec 32) = val_main_v3 (F := Ideal) (m ((c.tc : Thread nD τ).loc main_arg1)) := by
  show StableHlo.after hostOps0 (W0 m ρ c) (Proc.devRef .tc main_v3) = _
  after_results_simp
  rfl

set_option maxHeartbeats 4000000 in
theorem V3_v51 (c : Dev nD) :
    (V3 m ρ c main_v51 : S100000x128.Idx → EReal)
      = val_main_v22 (F := Ideal) (W2 m ρ c (Proc.devRef .tc main_v32)) (m ((c.tc : Thread nD τ).loc main_arg1)) := by
  show StableHlo.after hostOps1 (W2 m ρ c) (Proc.devRef .tc main_v51) = _
  after_results_simp
  rw [W2_v1, W2_v3, W1_v1, W1_v3]
  rfl

theorem V3_v32 (c : Dev nD) :
    (V3 m ρ c main_v32 : S100000x128.Idx → EReal) = W2 m ρ c (Proc.devRef .tc main_v32) := by
  show StableHlo.after hostOps1 (W2 m ρ c) (Proc.devRef .tc main_v32) = _
  after_results_simp

theorem V3_v9 (c : Dev nD) :
    (V3 m ρ c main_v9 : S128x128.Idx → EReal) = val_main_v56 (F := Ideal) (m ((c.tc : Thread nD τ).loc main_arg5)) := by
  show StableHlo.after hostOps1 (W2 m ρ c) (Proc.devRef .tc main_v9) = _
  after_results_simp
  rw [W2_of_ne m ρ c main_v9 (by decide)]
  show StableHlo.after hostOps0 (W0 m ρ c) (Proc.devRef .tc main_v9) = _
  after_results_simp
  rfl

theorem V3_v11 (c : Dev nD) :
    (V3 m ρ c main_v11 : S128x128.Idx → EReal) = val_main_v61 (F := Ideal) (m ((c.tc : Thread nD τ).loc main_arg7)) := by
  show StableHlo.after hostOps1 (W2 m ρ c) (Proc.devRef .tc main_v11) = _
  after_results_simp
  rw [W2_of_ne m ρ c main_v11 (by decide)]
  show StableHlo.after hostOps0 (W0 m ρ c) (Proc.devRef .tc main_v11) = _
  after_results_simp
  rfl

theorem V3_v52 (c : Dev nD) :
    (V3 m ρ c main_v52 : S1x128.Idx → EReal) = val_main_v58 (F := Ideal) (m ((c.tc : Thread nD τ).loc main_arg6)) := by
  show StableHlo.after hostOps1 (W2 m ρ c) (Proc.devRef .tc main_v52) = _
  after_results_simp
  rw [W2_of_ne m ρ c main_arg6 (by decide)]
  show shapeCast _ (StableHlo.after hostOps0 (W0 m ρ c) (Proc.devRef .tc main_arg6)) _ = _
  after_results_simp
  exact bias_row _ _

end Cert.Sage.Host

end
-- ==== Proof.Reference.lean ====
/-
  The reference program's result, stage by stage, is two GraphSAGE layers.

  Written over the reference's own stages: the mean aggregation of an array of node features along the edges
  (`val_main_v22`: gather the source rows, add them into the destination rows, divide by the clamped in-degree) is
  kept as one opaque function of the features and the edge list; it is applied to the input features in the first
  layer and, the same operations again, to the hidden features in the second (`agg_again`).  A layer's entry (p, q) is
  the reference's two products as sums over the 128 input features plus the bias, added in the order
  (left product + bias) + right product; jax spells the logistic function as 1 / (1 + exp (−x)), which is the
  extended reals' logistic function by definition.
-/
import proofs.«139245_j13984413516530_1_alg».proof.Proof.Gen.ReferenceIdeal.Read
import proofs.«139245_j13984413516530_1_alg».proof.Proof.Layer
import Idealize.ShloMosaic.Lib.IdealHost

noncomputable section

open scoped BigOperators

namespace Cert.Sage.Ref

open Cert.ReferenceIdeal Cert.ReferenceIdeal.Read Idealize.ShloMosaic Idealize.ShloMosaic.ValueIdx Cert.Sage

variable (x0 : (⟨S100000x128, .f32⟩ : BufTy).Contents (Elt Ideal)) (x1 : (⟨S2x625000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The hidden features: the first layer of the input features and their mean aggregation, through the logistic
    function. -/
def hidden : Nodes.Idx → EReal :=
  hid (val_main_v22 (F := Ideal) x0 x1) x0 (val_main_v23 (F := Ideal) x2) (val_main_v28 (F := Ideal) x4) (val_main_v25 (F := Ideal) x3)

/-- The network's output: the second layer of the hidden features and their mean aggregation. -/
def output : Nodes.Idx → EReal :=
  lin (val_main_v22 (F := Ideal) (hidden x0 x1 x2 x3 x4) x1) (hidden x0 x1 x2 x3 x4)
    (val_main_v56 (F := Ideal) x5) (val_main_v61 (F := Ideal) x7) (val_main_v58 (F := Ideal) x6)

/-- The second aggregation is the first one's operations again, applied to the hidden features. -/
theorem agg_again : val_main_v55 (F := Ideal) x0 x1 x2 x3 x4 = val_main_v22 (F := Ideal) (val_main_v36 (F := Ideal) x0 x1 x2 x3 x4) x1 := rfl

/-- The reference's hidden stage is `hidden`. -/
theorem hidden_eq : val_main_v36 (F := Ideal) x0 x1 x2 x3 x4 = hidden x0 x1 x2 x3 x4 := by
  funext i
  obtain ⟨p, q, rfl⟩ : ∃ (p : Fin 100000) (q : Fin 128), i = ix2 p q := ⟨i 0, i 1, eq_ix2 i⟩
  have el : ∀ k : Fin 128, lidx_main_v24 (ix2 p q) k = ix2 p k := fun k => funext fun a => by
    match a with | ⟨0, _⟩ => rfl | ⟨1, _⟩ => rfl
  have er : ∀ k : Fin 128, ridx_main_v24 (ix2 p q) k = ix2 k q := fun k => funext fun a => by
    match a with | ⟨0, _⟩ => rfl | ⟨1, _⟩ => rfl
  have el' : ∀ k : Fin 128, lidx_main_v29 (ix2 p q) k = ix2 p k := fun k => funext fun a => by
    match a with | ⟨0, _⟩ => rfl | ⟨1, _⟩ => rfl
  have er' : ∀ k : Fin 128, ridx_main_v29 (ix2 p q) k = ix2 k q := fun k => funext fun a => by
    match a with | ⟨0, _⟩ => rfl | ⟨1, _⟩ => rfl
  have eb : idx_main_v26 (ix2 p q) = ix2 (0 : Fin 1) q := funext fun a => by
    match a with | ⟨0, _⟩ => rfl | ⟨1, _⟩ => rfl
  rw [val_main_v36_apply, val_main_v35_apply, val_main_cst_5_apply, val_main_v34_apply, val_main_v33_apply, val_main_cst_4_apply,
    val_main_v32_apply, val_main_v31_apply, val_main_v30_apply, val_main_v27_apply, val_main_v24_apply, val_main_v26_apply,
    val_main_v29_apply]
  simp only [el, er, el', er', eb, Ideal.hostDivf_def, Ideal.addf_def, Ideal.hostUnary_exp_def, Ideal.hostNegf_def, Ideal.negf_def,
    Ideal.ofBits_def, Ideal.ofBits_one_f32]
  rw [three_add]
  rfl

/-- The reference's result stage is `output`. -/
theorem output_eq : val_main_v63 (F := Ideal) x0 x1 x2 x3 x4 x5 x6 x7 = output x0 x1 x2 x3 x4 x5 x6 x7 := by
  funext i
  obtain ⟨p, q, rfl⟩ : ∃ (p : Fin 100000) (q : Fin 128), i = ix2 p q := ⟨i 0, i 1, eq_ix2 i⟩
  have el : ∀ k : Fin 128, lidx_main_v57 (ix2 p q) k = ix2 p k := fun k => funext fun a => by
    match a with | ⟨0, _⟩ => rfl | ⟨1, _⟩ => rfl
  have er : ∀ k : Fin 128, ridx_main_v57 (ix2 p q) k = ix2 k q := fun k => funext fun a => by
    match a with | ⟨0, _⟩ => rfl | ⟨1, _⟩ => rfl
  have el' : ∀ k : Fin 128, lidx_main_v62 (ix2 p q) k = ix2 p k := fun k => funext fun a => by
    match a with | ⟨0, _⟩ => rfl | ⟨1, _⟩ => rfl
  have er' : ∀ k : Fin 128, ridx_main_v62 (ix2 p q) k = ix2 k q := fun k => funext fun a => by
    match a with | ⟨0, _⟩ => rfl | ⟨1, _⟩ => rfl
  have eb : idx_main_v59 (ix2 p q) = ix2 (0 : Fin 1) q := funext fun a => by
    match a with | ⟨0, _⟩ => rfl | ⟨1, _⟩ => rfl
  rw [val_main_v63_apply, val_main_v60_apply, val_main_v57_apply, val_main_v59_apply, val_main_v62_apply]
  simp only [el, er, el', er', eb, Ideal.addf_def, agg_again, hidden_eq]
  rw [three_add]
  rfl

end Cert.Sage.Ref

end
-- ==== Proof.KernelValue.lean ====
/-
  The idealized kernel's result, as a function of its arguments: the two GraphSAGE layers.

  After the first region its output array is the hidden layer of the arrays the region found (the mean aggregation of
  the input features, the input features, the transposed weights and the bias row, each read back to the arguments);
  the host aggregates that array along the edges; after the second region the result array is the output layer of the
  aggregated hidden features and the hidden features.  This is the same function the reference's stages compute.
-/
import proofs.«139245_j13984413516530_1_alg».proof.Proof.KRun
import proofs.«139245_j13984413516530_1_alg».proof.Proof.Region
import proofs.«139245_j13984413516530_1_alg».proof.Proof.Host
import proofs.«139245_j13984413516530_1_alg».proof.Proof.Reference

set_option maxRecDepth 16384

noncomputable section

namespace Cert.Sage.Kernel

open Cert.KernelIdeal Cert.KernelIdeal.Gen Cert.KernelIdeal.GenP
open Idealize.ShloMosaic Idealize.ShloMosaic.TcCoe Idealize.SL.Sem
open Cert.Sage

variable (m : (ℓ : Loc nD τ sig) → Buf (Elt Ideal) ℓ) (ρ : Dev nD → PrngReg)

/-- After the first region, its output array holds the hidden features of the arguments. -/
theorem hidden_array (c : Dev nD) :
    (W2 m ρ c (Proc.devRef .tc main_v32) : S100000x128.Idx → EReal)
      = Ref.hidden (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 5).trans ?_
  rw [Region.final0 (V1 m ρ) c, Host.V1_v30, Host.V1_arg0, Host.V1_v5, Host.V1_v7, Host.V1_v31]
  rfl

/-- After the second region, the result array holds the network's output of the arguments. -/
theorem output_array (c : Dev nD) :
    (W4 m ρ c (Proc.devRef .tc main_v53) : S100000x128.Idx → EReal)
      = Ref.output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ?_
  rw [Region.final1 (V3 m ρ) c, Host.V3_v51, Host.V3_v32, Host.V3_v9, Host.V3_v11, Host.V3_v52, hidden_array]
  rfl

/-- The run: every weakly fair execution terminates, nothing faulting, with the result at the network's output of the
    arguments and the arguments unchanged. -/
theorem run : θ_run defs (onTc (τ := τ) (main (F := Ideal))) ⟨m, fun _ => 0, ρ⟩ (fun r => ∀ c : Dev nD,
      r.2.mem ((c.tc : Thread nD τ).loc main_v53)
        = Ref.output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output_array m ρ c), (h c).2⟩) (KRun.run m ρ)

end Cert.Sage.Kernel

end
-- ==== Proof.lean ====
/-
  The certificate of a two-layer GraphSAGE network: a kernel whose two dense layers run as pallas regions (the
  gather / scatter-add mean aggregation staying on the host) against the plain jnp reference.

  On the extended reals both programs compute, for every node p and output feature q,

      out[p,q] = Σ_k mean(h)[p,k]·W2l[q,k] + Σ_k h[p,k]·W2r[q,k] + b2[q],
      h[p,q]   = logistic (Σ_k mean(x)[p,k]·W1l[q,k] + Σ_k x[p,k]·W1r[q,k] + b1[q]),

  where mean(·) is the mean of the source rows' features into the destination nodes along the edge list — the same
  host operations in both programs, kept as one opaque function and never opened.  The kernel rounds its operands to
  bf16 (the identity on the extended reals), multiplies block by block over twenty blocks of 5000 rows (an entry of a
  product needs one row of the left operand, so the blocks are the rows of the whole product), and adds the three
  terms in another order (addition of extended reals is commutative and associative; no finiteness is used).  The
  reference's 1 / (1 + exp (−x)) is the logistic function by definition.

  Modules: Layer (the layer as a function of arrays), Body (the kernel body's arithmetic at an entry), Region (what
  each region leaves in its output array), Host (the arrays the regions find, read back to the arguments), KRun (the
  kernel's run with the result buffer named), KernelValue (the kernel's result is the network), Reference (the
  reference's result is the network).
-/
import proofs.«139245_j13984413516530_1_alg».proof.Defs
import proofs.«139245_j13984413516530_1_alg».proof.Proof.Gen.Kernel
import proofs.«139245_j13984413516530_1_alg».proof.Proof.Patched.KernelFrame
import proofs.«139245_j13984413516530_1_alg».proof.Proof.Gen.KernelIdeal
import proofs.«139245_j13984413516530_1_alg».proof.Proof.Patched.KernelIdealFrame
import proofs.«139245_j13984413516530_1_alg».proof.Proof.Gen.ReferenceIdeal
import proofs.«139245_j13984413516530_1_alg».proof.Proof.Gen.ReferenceIdeal.Run
import proofs.«139245_j13984413516530_1_alg».proof.Proof.Gen.ReferenceIdeal.Read
import proofs.«139245_j13984413516530_1_alg».proof.Proof.Gen.Pre_finite_inputs
import proofs.«139245_j13984413516530_1_alg».proof.Proof.KernelValue
import proofs.«139245_j13984413516530_1_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network's output of their (agreeing) arguments in the result buffer. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v63_eq, Cert.Sage.Ref.output_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
